-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x131072 : Shape := ⟨2, ![512, 131072]⟩
abbrev S64x131072 : Shape := ⟨2, ![64, 131072]⟩
abbrev S64x512 : Shape := ⟨2, ![64, 512]⟩
abbrev S_ : Shape := ⟨0, ![]⟩

class Facts : Prop where
  bcast_S_S512x131072 : S_.BroadcastsInDim S512x131072 (![] : Fin 0 → Fin S512x131072.rank)
  reducesTo_S512x131072_S_d0_1 : S512x131072.ReducesTo [0, 1] S_
  h_S_ : 0 < S_.numel
  bcast_S_S64x131072 : S_.BroadcastsInDim S64x131072 (![] : Fin 0 → Fin S64x131072.rank)
  reducesTo_S64x131072_S_d0_1 : S64x131072.ReducesTo [0, 1] S_
  bcast_S_S64x512 : S_.BroadcastsInDim S64x512 (![] : Fin 0 → Fin S64x512.rank)
  reducesTo_S64x512_S_d0_1 : S64x512.ReducesTo [0, 1] S_

variable [Facts]

def fn {F : FTy → Type} [FloatOps F] (main_arg0 : FVec F S512x131072 .f32) (main_arg1 : FVec F S64x131072 .f32) (main_arg2 : FVec F S64x512 .f32) : IVec S_ 1 :=
  let main_v0 : FVec F S512x131072 .f32 := Host.absf main_arg0
  let main_cst : FVec F S_ .f32 := constant S_ .f32 0x7F800000#32
  let main_v1 : FVec F S512x131072 .f32 := broadcastInDim S512x131072 ![] bcast_S_S512x131072 main_cst
  let main_v2 : IVec S512x131072 1 := cmpf .olt main_v0 main_v1
  let main_c : IVec S_ 1 := constantI S_ 1 1#1
  let main_v3 : IVec S_ 1 := (fun x v => Host.reduce IntOp.andi x v reducesTo_S512x131072_S_d0_1 h_S_) main_v2 main_c
  let main_v4 : FVec F S64x131072 .f32 := Host.absf main_arg1
  let main_cst_0 : FVec F S_ .f32 := constant S_ .f32 0x7F800000#32
  let main_v5 : FVec F S64x131072 .f32 := broadcastInDim S64x131072 ![] bcast_S_S64x131072 main_cst_0
  let main_v6 : IVec S64x131072 1 := cmpf .olt main_v4 main_v5
  let main_c_1 : IVec S_ 1 := constantI S_ 1 1#1
  let main_v7 : IVec S_ 1 := (fun x v => Host.reduce IntOp.andi x v reducesTo_S64x131072_S_d0_1 h_S_) main_v6 main_c_1
  let main_v8 : IVec S_ 1 := andi main_v3 main_v7
  let main_v9 : FVec F S64x512 .f32 := Host.absf main_arg2
  let main_cst_2 : FVec F S_ .f32 := constant S_ .f32 0x7F800000#32
  let main_v10 : FVec F S64x512 .f32 := broadcastInDim S64x512 ![] bcast_S_S64x512 main_cst_2
  let main_v11 : IVec S64x512 1 := cmpf .olt main_v9 main_v10
  let main_c_3 : IVec S_ 1 := constantI S_ 1 1#1
  let main_v12 : IVec S_ 1 := (fun x v => Host.reduce IntOp.andi x v reducesTo_S64x512_S_d0_1 h_S_) main_v11 main_c_3
  let main_v13 : IVec S_ 1 := andi main_v8 main_v12
  main_v13
-- ==== Kernel.lean ====
abbrev S512x131072 : Shape := ⟨2, ![512, 131072]⟩
abbrev S64x131072 : Shape := ⟨2, ![64, 131072]⟩
abbrev S64x512 : Shape := ⟨2, ![64, 512]⟩
abbrev S2x64x512 : Shape := ⟨3, ![2, 64, 512]⟩
abbrev S512x8192 : Shape := ⟨2, ![512, 8192]⟩
abbrev S64x8192 : Shape := ⟨2, ![64, 8192]⟩
abbrev S1x64x512 : Shape := ⟨3, ![1, 64, 512]⟩
abbrev S64x1 : Shape := ⟨2, ![64, 1]⟩
abbrev S64 : Shape := ⟨1, ![64]⟩

abbrev nBuf : Space → Nat
  | .hbm => 9
  | .vmem => 9
  | .smem => 0
  | _ => 0

abbrev bufTy : (tb : Table) → Fin (tcTables nBuf tb) → BufTy
  | .hbm, ⟨0, _⟩ => ⟨S512x131072, .f32⟩
  | .hbm, ⟨1, _⟩ => ⟨S64x131072, .f32⟩
  | .hbm, ⟨2, _⟩ => ⟨S64x512, .f32⟩
  | .hbm, ⟨3, _⟩ => ⟨S2x64x512, .f32⟩
  | .hbm, ⟨4, _⟩ => ⟨S1x64x512, .f32⟩
  | .hbm, ⟨5, _⟩ => ⟨S64x512, .f32⟩
  | .hbm, ⟨6, _⟩ => ⟨S1x64x512, .f32⟩
  | .hbm, ⟨7, _⟩ => ⟨S64x512, .f32⟩
  | .hbm, ⟨8, _⟩ => ⟨S64x512, .f32⟩
  | .local _ .vmem, ⟨0, _⟩ => ⟨S512x8192, .f32⟩
  | .local _ .vmem, ⟨1, _⟩ => ⟨S512x8192, .f32⟩
  | .local _ .vmem, ⟨2, _⟩ => ⟨S64x8192, .f32⟩
  | .local _ .vmem, ⟨3, _⟩ => ⟨S64x8192, .f32⟩
  | .local _ .vmem, ⟨4, _⟩ => ⟨S64x512, .f32⟩
  | .local _ .vmem, ⟨5, _⟩ => ⟨S1x64x512, .f32⟩
  | .local _ .vmem, ⟨6, _⟩ => ⟨S1x64x512, .f32⟩
  | .local _ .vmem, ⟨7, _⟩ => ⟨S64x512, .f32⟩
  | .local _ .vmem, ⟨8, _⟩ => ⟨S64x1, .f32⟩
  | _, _ => ⟨S512x131072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v18 : BitVec 1 := Scalar.cmpi .eq arg1 c7_i32
  let v19 : BitVec 32 := Scalar.extui v18
  let c0_i32_13 : BitVec 32 := 0#32
  let v20 : BitVec 1 := Scalar.cmpi .ne v19 c0_i32_13
  v20

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S64x8192_S64x8192_0_0 : ∀ a, (![0, 0] : Fin 2 → Nat) a + S64x8192.size a ≤ S64x8192.size a
  h_S64x8192 : 0 < S64x8192.numel
  inb_S512x8192_S512x8192_0_0 : ∀ a, (![0, 0] : Fin 2 → Nat) a + S512x8192.size a ≤ S512x8192.size a
  h_S512x8192 : 0 < S512x8192.numel
  reduces_S64x8192_S64 : S64x8192.Reduces [1] S64
  shapeCasts_S64_S64x1 : S64.ShapeCasts S64x1
  broadcasts_S64x1_S64x512 : S64x1.Broadcasts S64x512
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  shapeCasts_S64x512_S1x64x512 : S64x512.ShapeCasts S1x64x512
  slices_S2x64x512_S1x64x512_0_0_0 : S2x64x512.Slices ![0, 0, 0] S1x64x512
  slices_S2x64x512_S1x64x512_1_0_0 : S2x64x512.Slices ![1, 0, 0] S1x64x512
  dot_S64x8192_S512x8192_S64x512_1_1_0_0_n_n_wf : DotDims.WF S64x8192 S512x8192 S64x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x8192.size a ≤ S512x131072.size a
  hwx0_0 : ∀ i : grid0.Coords, EltTy.bits .f32 = 32 ∨ (Rect.block (s := S512x131072) S512x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x8192.size a ≤ S64x131072.size a
  hwx0_1 : ∀ i : grid0.Coords, EltTy.bits .f32 = 32 ∨ (Rect.block (s := S64x131072) S64x8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x512.size a ≤ S64x512.size a
  hwx0_2 : ∀ i : grid0.Coords, EltTy.bits .f32 = 32 ∨ (Rect.block (s := S64x512) S64x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x512.size a ≤ S2x64x512.size a
  hwx0_3 : ∀ i : grid0.Coords, EltTy.bits .f32 = 32 ∨ (Rect.block (s := S2x64x512) S1x64x512.size (cc0_transform_3 i) (hinb0_3 i)).WholeWords (EltTy.packing .f32)

variable [Facts₀]

def dot_S64x8192_S512x8192_S64x512_1_1_0_0_n_n : DotDims S64x8192 S512x8192 S64x512 where
  lhsContracting := [1]
  rhsContracting := [1]
  lhsNonContracting := [0]
  rhsNonContracting := [0]
  lhsBatch := []
  rhsBatch := []
  wf := dot_S64x8192_S512x8192_S64x512_1_1_0_0_n_n_wf

abbrev win0_0 : Pipeline.Window sig grid0 :=
  Pipeline.Window.ofSpec (Memref.whole main_arg0) S512x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S512x131072 : Shape := ⟨2, ![512, 131072]⟩
abbrev S64x131072 : Shape := ⟨2, ![64, 131072]⟩
abbrev S64x512 : Shape := ⟨2, ![64, 512]⟩
abbrev S_ : Shape := ⟨0, ![]⟩
abbrev S64 : Shape := ⟨1, ![64]⟩
abbrev S64x1 : Shape := ⟨2, ![64, 1]⟩

abbrev nBuf : Space → Nat
  | .hbm => 10
  | .vmem => 0
  | .smem => 0
  | _ => 0

abbrev bufTy : (tb : Table) → Fin (tcTables nBuf tb) → BufTy
  | .hbm, ⟨0, _⟩ => ⟨S512x131072, .f32⟩
  | .hbm, ⟨1, _⟩ => ⟨S64x131072, .f32⟩
  | .hbm, ⟨2, _⟩ => ⟨S64x512, .f32⟩
  | .hbm, ⟨3, _⟩ => ⟨S64x512, .f32⟩
  | .hbm, ⟨4, _⟩ => ⟨S_, .f32⟩
  | .hbm, ⟨5, _⟩ => ⟨S64, .f32⟩
  | .hbm, ⟨6, _⟩ => ⟨S64x1, .f32⟩
  | .hbm, ⟨7, _⟩ => ⟨S64x512, .f32⟩
  | .hbm, ⟨8, _⟩ => ⟨S64x512, .f32⟩
  | .hbm, ⟨9, _⟩ => ⟨S64x512, .f32⟩
  | _, _ => ⟨S512x131072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  reducesTo_S64x131072_S64_d1 : S64x131072.ReducesTo [1] S64
  h_S_ : 0 < S_.numel
  bcast_S64_S64x1_0 : S64.BroadcastsInDim S64x1 (![0] : Fin 1 → Fin S64x1.rank)
  bcast_S64x1_S64x512_0_1 : S64x1.BroadcastsInDim S64x512 (![0, 1] : Fin 2 → Fin S64x512.rank)
  dot_S64x131072_S512x131072_S64x512_1_1_0_0_n_n_wf : DotDims.WF S64x131072 S512x131072 S64x512 [1] [1] [0] [0] [] []

variable [Facts₀]

def dot_S64x131072_S512x131072_S64x512_1_1_0_0_n_n : DotDims S64x131072 S512x131072 S64x512 where
  lhsContracting := [1]
  rhsContracting := [1]
  lhsNonContracting := [0]
  rhsNonContracting := [0]
  lhsBatch := []
  rhsBatch := []
  wf := dot_S64x131072_S512x131072_S64x512_1_1_0_0_n_n_wf

class Facts : Prop extends Facts₀ where

variable [Facts]
-- ==== Proof.Finite.lean ====
/-
  The precondition read entry by entry: when the three "all |v| < +inf" tests of the three inputs are all true,
  every entry of every input is a real number (neither +inf nor -inf).
-/
import proofs.«117677_j82549271429468_2_alg».proof.Pre_finite_inputs
import proofs.«117677_j82549271429468_2_alg».proof.Proof.Gen.Pre_finite_inputs
import Idealize.ShloMosaic.Lib.ReduceAll
import Idealize.ShloMosaic.Lib.ValueIdx
import Idealize.ShloMosaic.PureOps.Ideal

noncomputable section

namespace Cert.Finite

open Idealize.ShloMosaic Idealize.ShloMosaic.ValueIdx Cert.Pre_finite_inputs

instance : Subsingleton S_.Idx := ⟨fun a b => funext fun d => d.elim0⟩

/-- An extended real whose absolute value is below +inf is neither infinity. -/
theorem real_of_abs_lt (x : EReal) (h : Ideal.cmp .olt (max x (-x)) (Ideal.ofBits .f32 0x7F800000#32) = 1#1) :
    x ≠ ⊤ ∧ x ≠ ⊥ := by
  have htop : Ideal.ofBits .f32 0x7F800000#32 = ⊤ := by simp [Ideal.ofBits, Ideal.ieee]
  rw [htop] at h
  unfold Ideal.cmp at h
  constructor
  · rintro rfl; simp at h
  · rintro rfl; simp at h

/-- Under the precondition every entry of the three inputs is finite. -/
theorem entries_real (A0 : FVec Ideal S512x131072 .f32) (A1 : FVec Ideal S64x131072 .f32) (A2 : FVec Ideal S64x512 .f32)
    (h : fn (F := Ideal) A0 A1 A2 = fun _ => 1#1) :
    (∀ i, A0 i ≠ ⊤ ∧ A0 i ≠ ⊥) ∧ (∀ i, A1 i ≠ ⊤ ∧ A1 i ≠ ⊥) ∧ (∀ i, A2 i ≠ ⊤ ∧ A2 i ≠ ⊥) := by
  have h0 := congrFun h ix0
  dsimp only [fn] at h0
  obtain ⟨h01, h2⟩ := IntOp.andi_eq_one.1 h0
  obtain ⟨h00, h1⟩ := IntOp.andi_eq_one.1 h01
  refine ⟨fun i => real_of_abs_lt (A0 i) ?_, fun i => real_of_abs_lt (A1 i) ?_, fun i => real_of_abs_lt (A2 i) ?_⟩
  · exact Host.reduce_andi_all _ _ _ _ _ h00 i
  · exact Host.reduce_andi_all _ _ _ _ _ h1 i
  · exact Host.reduce_andi_all _ _ _ _ _ h2 i

end Cert.Finite

end
-- ==== Proof.BlockSums.lean ====
/-
  Real arithmetic behind a sum over a long axis taken in consecutive blocks.

  For a row `a k ·` of one matrix and a row `x d ·` of another, read as functions of a natural column number,
  `dotSeg a x k d b l` is the sum of the products `a k n * x d n` over the `l` columns from `b` on and `rowSeg a k b l`
  the sum of `a k n` over the same columns.  A segment of `l₁ + l₂` columns is the segment of the first `l₁` plus the
  segment of the next `l₂`; and, `c` being any real,

      (dot over the first half - c * row over the first half) + (the same over the second half)
        = dot over both halves - c * row over both halves,

  which is distributivity of `c` over the two row sums: true of real numbers, not of extended reals.
  An array of extended reals all of whose entries are finite is read as such a real function by `re2`, and finite sums of
  coerced reals are coerced sums.
-/
import Mathlib.Tactic.Ring
import Mathlib.Algebra.BigOperators.Fin
import Idealize.ShloMosaic.Lib.ValueIdx

namespace Cert.BlockSums

open Idealize.ShloMosaic Idealize.ShloMosaic.ValueIdx

/-- The sum of `a k n * x d n` over the `l` columns `n = b, …, b + l - 1`. -/
def dotSeg (a x : ℕ → ℕ → ℝ) (k d b l : ℕ) : ℝ := ∑ j ∈ Finset.range l, a k (b + j) * x d (b + j)

/-- The sum of `a k n` over the same columns. -/
def rowSeg (a : ℕ → ℕ → ℝ) (k b l : ℕ) : ℝ := ∑ j ∈ Finset.range l, a k (b + j)

theorem dotSeg_add (a x : ℕ → ℕ → ℝ) (k d b l₁ l₂ : ℕ) :
    dotSeg a x k d b (l₁ + l₂) = dotSeg a x k d b l₁ + dotSeg a x k d (b + l₁) l₂ := by
  unfold dotSeg
  rw [Finset.sum_range_add]
  refine congrArg (_ + ·) (Finset.sum_congr rfl fun j _ => ?_)
  rw [Nat.add_assoc]

theorem rowSeg_add (a : ℕ → ℕ → ℝ) (k b l₁ l₂ : ℕ) :
    rowSeg a k b (l₁ + l₂) = rowSeg a k b l₁ + rowSeg a k (b + l₁) l₂ := by
  unfold rowSeg
  rw [Finset.sum_range_add]
  refine congrArg (_ + ·) (Finset.sum_congr rfl fun j _ => ?_)
  rw [Nat.add_assoc]

/-- The two halves of the long axis, each with its own subtraction of `c` times its row sum, add up to the whole. -/
theorem halves (a x : ℕ → ℕ → ℝ) (k d h : ℕ) (c : ℝ) :
    (dotSeg a x k d 0 h - c * rowSeg a k 0 h) + (dotSeg a x k d h h - c * rowSeg a k h h)
      = dotSeg a x k d 0 (h + h) - c * rowSeg a k 0 (h + h) := by
  rw [dotSeg_add, rowSeg_add, Nat.zero_add]
  ring

/-- One half's contribution at (k, d): its product sum minus `cc k d` times its row sum, over the half's 65536 columns. -/
def half (a x cc : ℕ → ℕ → ℝ) (p k d : ℕ) : ℝ :=
  dotSeg a x k d (p * 65536) 65536 - cc k d * rowSeg a k (p * 65536) 65536

/-- The same over all 131072 columns. -/
def whole (a x cc : ℕ → ℕ → ℝ) (k d : ℕ) : ℝ :=
  dotSeg a x k d 0 131072 - cc k d * rowSeg a k 0 131072

/-- The two halves' contributions add up to the whole. -/
theorem half_add_half (a x cc : ℕ → ℕ → ℝ) (k d : ℕ) : half a x cc 0 k d + half a x cc 1 k d = whole a x cc k d := by
  unfold half whole
  rw [Nat.zero_mul, Nat.one_mul]
  exact halves a x k d 65536 (cc k d)

/-- A finite sum of coerced reals is the coerced sum. -/
theorem coe_sum {ι : Type*} (s : Finset ι) (f : ι → ℝ) : (∑ i ∈ s, ((f i : ℝ) : EReal)) = ((∑ i ∈ s, f i : ℝ) : EReal) := by
  classical
  induction s using Finset.induction_on with
  | empty => simp
  | insert i s hi ih => rw [Finset.sum_insert hi, Finset.sum_insert hi, ih, EReal.coe_add]

/-- A sum of products of coerced reals over the `l` positions of an axis is the coerced segment of products. -/
theorem sum_fin_mul (a x : ℕ → ℕ → ℝ) (k d b l : ℕ) :
    (∑ j : Fin l, ((a k (b + j.val) : ℝ) : EReal) * ((x d (b + j.val) : ℝ) : EReal)) = ((dotSeg a x k d b l : ℝ) : EReal) := by
  unfold dotSeg
  rw [← Fin.sum_univ_eq_sum_range (fun j => a k (b + j) * x d (b + j)) l, ← coe_sum]
  refine Finset.sum_congr rfl fun j _ => ?_
  rw [EReal.coe_mul]

/-- A sum of coerced reals over the `l` positions of an axis is the coerced segment. -/
theorem sum_fin (a : ℕ → ℕ → ℝ) (k b l : ℕ) :
    (∑ j : Fin l, ((a k (b + j.val) : ℝ) : EReal)) = ((rowSeg a k b l : ℝ) : EReal) := by
  unfold rowSeg
  rw [← Fin.sum_univ_eq_sum_range (fun j => a k (b + j)) l, ← coe_sum]

/-- An `[R, C]` array of extended reals read as a real function of a natural row and column (zero outside the array). -/
def re2 {R C : ℕ} (X : (⟨2, ![R, C]⟩ : Shape).Idx → EReal) (r c : ℕ) : ℝ :=
  if h : r < R ∧ c < C then (X (ix2 ⟨r, h.1⟩ ⟨c, h.2⟩)).toReal else 0

/-- Where every entry is finite, the array is the coercion of its real reading. -/
theorem re2_coe {R C : ℕ} (X : (⟨2, ![R, C]⟩ : Shape).Idx → EReal) (hX : ∀ i, X i ≠ ⊤ ∧ X i ≠ ⊥) (r : Fin R) (c : Fin C) :
    X (ix2 r c) = ((re2 X r.val c.val : ℝ) : EReal) := by
  unfold re2
  rw [dif_pos ⟨r.isLt, c.isLt⟩]
  exact (EReal.coe_toReal (hX _).1 (hX _).2).symm

end Cert.BlockSums
-- ==== Proof.Blocks.lean ====
/-
  The blocks the steps read.  Step t (0 ≤ t < 16: half t / 8, position t % 8 in the half) reads columns
  8192·t … 8192·t + 8191 of the [512, 131072] input and of the [64, 131072] input, and the whole [64, 512] input; the
  [2, 64, 512] result is written one [1, 64, 512] slab per half.
-/
import proofs.«117677_j82549271429468_2_alg».proof.Proof.Gen.KernelIdeal.Frame.Runs
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- Which block of each array a step uses, over the sixteen steps. -/
theorem x_block_index : ∀ t : Fin cfg0.N, win0_0.index t (0 : Fin 2) = 0 ∧ win0_0.index t (1 : Fin 2) = t.val :=
  (by decide +kernel : ∀ t : Fin grid0.N, win0_0.index t (0 : Fin 2) = 0 ∧ win0_0.index t (1 : Fin 2) = t.val)
theorem a_block_index : ∀ t : Fin cfg0.N, win0_1.index t (0 : Fin 2) = 0 ∧ win0_1.index t (1 : Fin 2) = t.val :=
  (by decide +kernel : ∀ t : Fin grid0.N, win0_1.index t (0 : Fin 2) = 0 ∧ win0_1.index t (1 : Fin 2) = t.val)
theorem c_block_index : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem out_block_index : ∀ t : Fin cfg0.N,
    win0_3.index t (0 : Fin 3) = t.val / 8 ∧ win0_3.index t (1 : Fin 3) = 0 ∧ win0_3.index t (2 : Fin 3) = 0 :=
  (by decide +kernel : ∀ t : Fin grid0.N,
    win0_3.index t (0 : Fin 3) = t.val / 8 ∧ win0_3.index t (1 : Fin 3) = 0 ∧ win0_3.index t (2 : Fin 3) = 0)

theorem step_lt (t : Fin cfg0.N) : t.val < 16 := lt_of_lt_of_eq t.isLt (show cfg0.N = 16 from N_0)

/-- Row d of the step's block of the [512, 131072] input, position j: column 8192·t + j of that row. -/
theorem x_block (c : Dev nD) (t : Fin cfg0.N) (d : Fin 512) (j : Fin 8192) :
    (iblk m c 0 t : Vec F S512x8192 .f32) (ix2 d j)
      = (V m c main_arg0 : S512x131072.Idx → Elt F .f32) (ix2 d ⟨t.val * 8192 + j.val, by have := step_lt t; have := j.isLt; omega⟩) := by
  unfold iblk
  rw [View.read_apply]
  show V m c main_arg0 _ = V m c main_arg0 _
  refine congrArg (V m c main_arg0) (funext fun a => Fin.ext ?_)
  match a with
  | ⟨0, _⟩ => show win0_0.index t 0 * 512 + 1 * d.val = d.val; rw [(x_block_index t).1]; omega
  | ⟨1, _⟩ => show win0_0.index t 1 * 8192 + 1 * j.val = t.val * 8192 + j.val; rw [(x_block_index t).2]; omega

/-- Row k of the step's block of the [64, 131072] input, position j: column 8192·t + j of that row. -/
theorem a_block (c : Dev nD) (t : Fin cfg0.N) (k : Fin 64) (j : Fin 8192) :
    (iblk m c 1 t : Vec F S64x8192 .f32) (ix2 k j)
      = (V m c main_arg1 : S64x131072.Idx → Elt F .f32) (ix2 k ⟨t.val * 8192 + j.val, by have := step_lt t; have := j.isLt; omega⟩) := by
  unfold iblk
  rw [View.read_apply]
  show V m c main_arg1 _ = V m c main_arg1 _
  refine congrArg (V m c main_arg1) (funext fun a => Fin.ext ?_)
  match a with
  | ⟨0, _⟩ => show win0_1.index t 0 * 64 + 1 * k.val = k.val; rw [(a_block_index t).1]; omega
  | ⟨1, _⟩ => show win0_1.index t 1 * 8192 + 1 * j.val = t.val * 8192 + j.val; rw [(a_block_index t).2]; omega

/-- Every step's block of the [64, 512] input is the input. -/
theorem c_block (c : Dev nD) (t : Fin cfg0.N) (k : Fin 64) (d : Fin 512) :
    (iblk m c 2 t : Vec F S64x512 .f32) (ix2 k d) = (V m c main_arg2 : S64x512.Idx → Elt F .f32) (ix2 k d) := by
  unfold iblk
  rw [View.read_apply]
  show V m c main_arg2 _ = V m c main_arg2 _
  refine congrArg (V m c main_arg2) (funext fun a => Fin.ext ?_)
  match a with
  | ⟨0, _⟩ => show win0_2.index t 0 * 64 + 1 * k.val = k.val; rw [(c_block_index t).1]; omega
  | ⟨1, _⟩ => show win0_2.index t 1 * 512 + 1 * d.val = d.val; rw [(c_block_index t).2]; omega

end Cert.KernelIdeal.Blocks

end
-- ==== Proof.Pieces.lean ====
/-
  What one run of the kernel body leaves behind, as values of what it loaded.

  The body is run in three situations: at the first step of a half (the running table and column are first set to
  zero), at a middle step, and at the last step of a half (the result block is also written).  In each the running
  table ends as the table step applied to the step's two blocks and the table's previous contents (zero at a first
  step), the running column likewise, and at a last step the written block is computed from the UPDATED table and
  column and the third input's block.
-/
import proofs.«117677_j82549271429468_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem Idealize.ShloMosaic.Tactic

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First step of a half: the table is the step applied to the zero table. -/
theorem table_first (c : Dev nD) (i : grid0.Coords) (arg2 : Memref sig .tc .vmem S512x8192 .f32) (harg2 : arg2.IsWhole) (arg3 : Memref sig .tc .vmem S64x8192 .f32) (harg3 : arg3.IsWhole) (arg4 : Memref sig .tc .vmem S64x512 .f32) (harg4 : arg4.IsWhole) (arg5 : Memref sig .tc .vmem S1x64x512 .f32) (harg5 : arg5.IsWhole) (arg6 : Memref sig .tc .vmem S64x512 .f32) (harg6 : arg6.IsWhole) (arg7 : Memref sig .tc .vmem S64x1 .f32) (harg7 : arg7.IsWhole) (hc0 : cond0_0 i) (hc1 : ¬cond0_1 i)
    (x0 : Vec F S512x8192 .f32) (x1 : Vec F S64x8192 .f32) (x2 : Vec F S64x512 .f32) :
    sout0_A_0 c i arg2 harg2 arg3 harg3 arg4 harg4 arg5 harg5 arg6 harg6 arg7 harg7 hc0 hc1 x0 x1 x2 = k0_pay3 x1 x0 (k0_pay1 (F := F)) := by
  unfold sout0_A_0
  rw [View.read_writes_eq_canon _ _ _ (scover0_A_0 c i arg2 harg2 arg3 harg3 arg4 harg4 arg5 harg5 arg6 harg6 arg7 harg7 hc0 hc1 x0 x1 x2)]
  unfold kernelRun0_A
  dsimp only
  sl_unfold_words
  rw [View.canon_cons_unit_zero (S := S64x512) hz2, View.readCov_unit_zero (S := S64x512) _ hz2]
  simp only [View.readAt_eq_ld, harg2.read_unread, harg3.read_unread, harg4.read_unread, harg6.read_unread, harg7.read_unread,
    View.ld_unit_zero (S := S64x8192) hz2, View.ld_unit_zero (S := S512x8192) hz2, View.ld_unit_zero (S := S64x512) hz2,
    View.ld_unit_zero (S := S64x1) hz2]

/-- First step of a half: the column is the step applied to the zero column. -/
theorem column_first (c : Dev nD) (i : grid0.Coords) (arg2 : Memref sig .tc .vmem S512x8192 .f32) (harg2 : arg2.IsWhole) (arg3 : Memref sig .tc .vmem S64x8192 .f32) (harg3 : arg3.IsWhole) (arg4 : Memref sig .tc .vmem S64x512 .f32) (harg4 : arg4.IsWhole) (arg5 : Memref sig .tc .vmem S1x64x512 .f32) (harg5 : arg5.IsWhole) (arg6 : Memref sig .tc .vmem S64x512 .f32) (harg6 : arg6.IsWhole) (arg7 : Memref sig .tc .vmem S64x1 .f32) (harg7 : arg7.IsWhole) (hc0 : cond0_0 i) (hc1 : ¬cond0_1 i)
    (x0 : Vec F S512x8192 .f32) (x1 : Vec F S64x8192 .f32) (x2 : Vec F S64x512 .f32) :
    sout0_A_1 c i arg2 harg2 arg3 harg3 arg4 harg4 arg5 harg5 arg6 harg6 arg7 harg7 hc0 hc1 x0 x1 x2 = k0_pay4 x1 (k0_pay2 (F := F)) := by
  unfold sout0_A_1
  rw [View.read_writes_eq_canon _ _ _ (scover0_A_1 c i arg2 harg2 arg3 harg3 arg4 harg4 arg5 harg5 arg6 harg6 arg7 harg7 hc0 hc1 x0 x1 x2)]
  unfold kernelRun0_A
  dsimp only
  sl_unfold_words
  rw [View.canon_cons_unit_zero (S := S64x1) hz2, View.readCov_unit_zero (S := S64x1) _ hz2]
  simp only [View.readAt_eq_ld, harg2.read_unread, harg3.read_unread, harg4.read_unread, harg6.read_unread, harg7.read_unread,
    View.ld_unit_zero (S := S64x8192) hz2, View.ld_unit_zero (S := S512x8192) hz2, View.ld_unit_zero (S := S64x512) hz2,
    View.ld_unit_zero (S := S64x1) hz2]

/-- Middle step: the table is the step applied to what the step before left. -/
theorem table_middle (c : Dev nD) (i : grid0.Coords) (arg2 : Memref sig .tc .vmem S512x8192 .f32) (harg2 : arg2.IsWhole) (arg3 : Memref sig .tc .vmem S64x8192 .f32) (harg3 : arg3.IsWhole) (arg4 : Memref sig .tc .vmem S64x512 .f32) (harg4 : arg4.IsWhole) (arg5 : Memref sig .tc .vmem S1x64x512 .f32) (harg5 : arg5.IsWhole) (arg6 : Memref sig .tc .vmem S64x512 .f32) (harg6 : arg6.IsWhole) (arg7 : Memref sig .tc .vmem S64x1 .f32) (harg7 : arg7.IsWhole) (hc0 : ¬cond0_0 i) (hc1 : ¬cond0_1 i)
    (x0 : Vec F S512x8192 .f32) (x1 : Vec F S64x8192 .f32) (x2 : Vec F S64x512 .f32) (xs0 : Vec F S64x512 .f32) (xs1 : Vec F S64x1 .f32) :
    sout0_B_0 c i arg2 harg2 arg3 harg3 arg4 harg4 arg5 harg5 arg6 harg6 arg7 harg7 hc0 hc1 x0 x1 x2 xs0 xs1 = k0_pay3 x1 x0 xs0 := by
  unfold sout0_B_0
  rw [View.read_writes_eq_canon _ _ _ (scover0_B_0 c i arg2 harg2 arg3 harg3 arg4 harg4 arg5 harg5 arg6 harg6 arg7 harg7 hc0 hc1 x0 x1 x2 xs0 xs1)]
  unfold kernelRun0_B
  dsimp only
  sl_unfold_words
  rw [View.canon_unit_zero (S := S64x512) hz2]
  simp only [View.readAt_eq_ld, harg2.read_unread, harg3.read_unread, harg4.read_unread, harg6.read_unread, harg7.read_unread,
    View.ld_unit_zero (S := S64x8192) hz2, View.ld_unit_zero (S := S512x8192) hz2, View.ld_unit_zero (S := S64x512) hz2,
    View.ld_unit_zero (S := S64x1) hz2]

theorem column_middle (c : Dev nD) (i : grid0.Coords) (arg2 : Memref sig .tc .vmem S512x8192 .f32) (harg2 : arg2.IsWhole) (arg3 : Memref sig .tc .vmem S64x8192 .f32) (harg3 : arg3.IsWhole) (arg4 : Memref sig .tc .vmem S64x512 .f32) (harg4 : arg4.IsWhole) (arg5 : Memref sig .tc .vmem S1x64x512 .f32) (harg5 : arg5.IsWhole) (arg6 : Memref sig .tc .vmem S64x512 .f32) (harg6 : arg6.IsWhole) (arg7 : Memref sig .tc .vmem S64x1 .f32) (harg7 : arg7.IsWhole) (hc0 : ¬cond0_0 i) (hc1 : ¬cond0_1 i)
    (x0 : Vec F S512x8192 .f32) (x1 : Vec F S64x8192 .f32) (x2 : Vec F S64x512 .f32) (xs0 : Vec F S64x512 .f32) (xs1 : Vec F S64x1 .f32) :
    sout0_B_1 c i arg2 harg2 arg3 harg3 arg4 harg4 arg5 harg5 arg6 harg6 arg7 harg7 hc0 hc1 x0 x1 x2 xs0 xs1 = k0_pay4 x1 xs1 := by
  unfold sout0_B_1
  rw [View.read_writes_eq_canon _ _ _ (scover0_B_1 c i arg2 harg2 arg3 harg3 arg4 harg4 arg5 harg5 arg6 harg6 arg7 harg7 hc0 hc1 x0 x1 x2 xs0 xs1)]
  unfold kernelRun0_B
  dsimp only
  sl_unfold_words
  rw [View.canon_unit_zero (S := S64x1) hz2]
  simp only [View.readAt_eq_ld, harg2.read_unread, harg3.read_unread, harg4.read_unread, harg6.read_unread, harg7.read_unread,
    View.ld_unit_zero (S := S64x8192) hz2, View.ld_unit_zero (S := S512x8192) hz2, View.ld_unit_zero (S := S64x512) hz2,
    View.ld_unit_zero (S := S64x1) hz2]

/-- Last step of a half: the table and the column are stepped as at a middle step, -/
theorem table_last (c : Dev nD) (i : grid0.Coords) (arg2 : Memref sig .tc .vmem S512x8192 .f32) (harg2 : arg2.IsWhole) (arg3 : Memref sig .tc .vmem S64x8192 .f32) (harg3 : arg3.IsWhole) (arg4 : Memref sig .tc .vmem S64x512 .f32) (harg4 : arg4.IsWhole) (arg5 : Memref sig .tc .vmem S1x64x512 .f32) (harg5 : arg5.IsWhole) (arg6 : Memref sig .tc .vmem S64x512 .f32) (harg6 : arg6.IsWhole) (arg7 : Memref sig .tc .vmem S64x1 .f32) (harg7 : arg7.IsWhole) (hc0 : ¬cond0_0 i) (hc1 : cond0_1 i)
    (x0 : Vec F S512x8192 .f32) (x1 : Vec F S64x8192 .f32) (x2 : Vec F S64x512 .f32) (xs0 : Vec F S64x512 .f32) (xs1 : Vec F S64x1 .f32) :
    sout0_C_0 c i arg2 harg2 arg3 harg3 arg4 harg4 arg5 harg5 arg6 harg6 arg7 harg7 hc0 hc1 x0 x1 x2 xs0 xs1 = k0_pay3 x1 x0 xs0 := by
  unfold sout0_C_0
  rw [View.read_writes_eq_canon _ _ _ (scover0_C_0 c i arg2 harg2 arg3 harg3 arg4 harg4 arg5 harg5 arg6 harg6 arg7 harg7 hc0 hc1 x0 x1 x2 xs0 xs1)]
  unfold kernelRun0_C
  dsimp only
  sl_unfold_words
  rw [View.canon_unit_zero (S := S64x512) hz2]
  simp only [View.readAt_eq_ld, harg2.read_unread, harg3.read_unread, harg4.read_unread, harg6.read_unread, harg7.read_unread,
    View.ld_unit_zero (S := S64x8192) hz2, View.ld_unit_zero (S := S512x8192) hz2, View.ld_unit_zero (S := S64x512) hz2,
    View.ld_unit_zero (S := S64x1) hz2]

theorem column_last (c : Dev nD) (i : grid0.Coords) (arg2 : Memref sig .tc .vmem S512x8192 .f32) (harg2 : arg2.IsWhole) (arg3 : Memref sig .tc .vmem S64x8192 .f32) (harg3 : arg3.IsWhole) (arg4 : Memref sig .tc .vmem S64x512 .f32) (harg4 : arg4.IsWhole) (arg5 : Memref sig .tc .vmem S1x64x512 .f32) (harg5 : arg5.IsWhole) (arg6 : Memref sig .tc .vmem S64x512 .f32) (harg6 : arg6.IsWhole) (arg7 : Memref sig .tc .vmem S64x1 .f32) (harg7 : arg7.IsWhole) (hc0 : ¬cond0_0 i) (hc1 : cond0_1 i)
    (x0 : Vec F S512x8192 .f32) (x1 : Vec F S64x8192 .f32) (x2 : Vec F S64x512 .f32) (xs0 : Vec F S64x512 .f32) (xs1 : Vec F S64x1 .f32) :
    sout0_C_1 c i arg2 harg2 arg3 harg3 arg4 harg4 arg5 harg5 arg6 harg6 arg7 harg7 hc0 hc1 x0 x1 x2 xs0 xs1 = k0_pay4 x1 xs1 := by
  unfold sout0_C_1
  rw [View.read_writes_eq_canon _ _ _ (scover0_C_1 c i arg2 harg2 arg3 harg3 arg4 harg4 arg5 harg5 arg6 harg6 arg7 harg7 hc0 hc1 x0 x1 x2 xs0 xs1)]
  unfold kernelRun0_C
  dsimp only
  sl_unfold_words
  rw [View.canon_unit_zero (S := S64x1) hz2]
  simp only [View.readAt_eq_ld, harg2.read_unread, harg3.read_unread, harg4.read_unread, harg6.read_unread, harg7.read_unread,
    View.ld_unit_zero (S := S64x8192) hz2, View.ld_unit_zero (S := S512x8192) hz2, View.ld_unit_zero (S := S64x512) hz2,
    View.ld_unit_zero (S := S64x1) hz2]

/-- and the written block is computed from the stepped table, the third input's block and the stepped column. -/
theorem written_last (c : Dev nD) (i : grid0.Coords) (arg2 : Memref sig .tc .vmem S512x8192 .f32) (harg2 : arg2.IsWhole) (arg3 : Memref sig .tc .vmem S64x8192 .f32) (harg3 : arg3.IsWhole) (arg4 : Memref sig .tc .vmem S64x512 .f32) (harg4 : arg4.IsWhole) (arg5 : Memref sig .tc .vmem S1x64x512 .f32) (harg5 : arg5.IsWhole) (arg6 : Memref sig .tc .vmem S64x512 .f32) (harg6 : arg6.IsWhole) (arg7 : Memref sig .tc .vmem S64x1 .f32) (harg7 : arg7.IsWhole) (hc0 : ¬cond0_0 i) (hc1 : cond0_1 i)
    (x0 : Vec F S512x8192 .f32) (x1 : Vec F S64x8192 .f32) (x2 : Vec F S64x512 .f32) (xs0 : Vec F S64x512 .f32) (xs1 : Vec F S64x1 .f32) :
    out0_C_3 c i arg2 harg2 arg3 harg3 arg4 harg4 arg5 harg5 arg6 harg6 arg7 harg7 hc0 hc1 x0 x1 x2 xs0 xs1 = k0_pay5 (k0_pay3 x1 x0 xs0) x2 (k0_pay4 x1 xs1) := by
  unfold out0_C_3
  rw [View.read_writes_eq_canon _ _ _ (cover0_C_3 c i arg2 harg2 arg3 harg3 arg4 harg4 arg5 harg5 arg6 harg6 arg7 harg7 hc0 hc1 x0 x1 x2 xs0 xs1)]
  unfold kernelRun0_C
  dsimp only
  sl_unfold_words
  rw [View.canon_unit_zero (S := S1x64x512) hz3, View.readCov_unit_zero (S := S64x512) _ hz2, View.readCov_unit_zero (S := S64x1) _ hz2]
  simp only [View.readAt_eq_ld, harg2.read_unread, harg3.read_unread, harg4.read_unread, harg6.read_unread, harg7.read_unread,
    View.ld_unit_zero (S := S64x8192) hz2, View.ld_unit_zero (S := S512x8192) hz2, View.ld_unit_zero (S := S64x512) hz2,
    View.ld_unit_zero (S := S64x1) hz2]

end Cert.KernelIdeal.Pieces

end
-- ==== Proof.LibColumn.lean ====
/- A per-row statistic laid out as a column and spread back over the row.

   A kernel that reduces each row of an [a, b] block to one number (a maximum, a sum) keeps the result as a
   vector of length a, re-lays it as an [a, 1] column and broadcasts the column over the b positions of each
   row.  Read at (p, c) the column and its broadcast are the statistic of row p. -/
import Idealize.ShloMosaic.Lib.Pipeline.Value
import Idealize.ShloMosaic.Lib.ValueIdx

namespace Cert.LibColumn

open Idealize.ShloMosaic Idealize.ShloMosaic.ValueIdx

variable {α : Type}

/-- A vector of length a re-laid as an [a, 1] column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An [a, 1] column broadcast to [a, b] reads, at (p, c), the column at row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Both steps at once: the statistic of row p, at every position of the row. -/
theorem broadcastTo_shapeCast_column_apply {a b : ℕ} (x : (⟨1, ![a]⟩ : Shape).Idx → α)
    (h1 : (⟨1, ![a]⟩ : Shape).ShapeCasts ⟨2, ![a, 1]⟩) (h2 : (⟨2, ![a, 1]⟩ : Shape).Broadcasts ⟨2, ![a, b]⟩) (p : Fin a) (c : Fin b) :
    broadcastTo ⟨2, ![a, b]⟩ (shapeCast ⟨2, ![a, 1]⟩ x h1) h2 (ix2 p c) = x (ix1 p) :=
  (broadcastTo_a1_ab_apply _ h2 p c).trans (shapeCast_a_a1_apply x h1 p 0)

end Cert.LibColumn
-- ==== Proof.Payloads.lean ====
/-
  What the kernel body stores, read entry by entry over the extended reals.

  The body keeps two running values across the steps of one half of the long axis: a [64, 512] table and a [64, 1]
  column.  At every step it adds to entry (k, d) of the table the product sum of row k of the step's [64, 8192] block
  with row d of the step's [512, 8192] block, and to entry k of the column the sum of row k of the [64, 8192] block;
  at the first step of a half both start from zero; at the last step it writes, into a [1, 64, 512] block, the table
  entry minus the third operand's entry (k, d) times the column entry k.
-/
import proofs.«117677_j82549271429468_2_alg».proof.Proof.Gen.KernelIdeal.Skeleton
import proofs.«117677_j82549271429468_2_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx

/-- The zero table a half starts from. -/
theorem zero_table (k : Fin 64) (d : Fin 512) : k0_pay1 (F := Ideal) (ix2 k d) = 0 := by
  unfold k0_pay1
  try dsimp only
  rw [shapeCast_self]
  exact Ideal.ofBits_zero_f32

/-- The zero column a half starts from. -/
theorem zero_column (k : Fin 64) (u : Fin 1) : k0_pay2 (F := Ideal) (ix2 k u) = 0 := by
  unfold k0_pay2
  try dsimp only
  rw [shapeCast_self]
  exact Ideal.ofBits_zero_f32

/-- The operand indices of the step's product at output entry i and contraction index q: the row is the entry's own
    coordinate, the column the contraction position. -/
theorem lhs_row (i : S64x512.Idx) (q : dot_S64x8192_S512x8192_S64x512_1_1_0_0_n_n.contr.Idx) :
    (dot_S64x8192_S512x8192_S64x512_1_1_0_0_n_n.lhsIdx i q 0).val = (i 0).val := by
  unfold DotDims.lhsIdx
  rw [dif_neg (show ¬(0 : Fin S64x8192.rank) ∈ dot_S64x8192_S512x8192_S64x512_1_1_0_0_n_n.lhsBatch by decide),
    dif_pos (show (0 : Fin S64x8192.rank) ∈ dot_S64x8192_S512x8192_S64x512_1_1_0_0_n_n.lhsNonContracting by decide)]
  rfl
theorem lhs_col (i : S64x512.Idx) (q : dot_S64x8192_S512x8192_S64x512_1_1_0_0_n_n.contr.Idx) :
    (dot_S64x8192_S512x8192_S64x512_1_1_0_0_n_n.lhsIdx i q 1).val = (q ⟨0, by decide⟩).val :=
  dot_S64x8192_S512x8192_S64x512_1_1_0_0_n_n.lhsIdx_val_of_single rfl i q
theorem rhs_row (i : S64x512.Idx) (q : dot_S64x8192_S512x8192_S64x512_1_1_0_0_n_n.contr.Idx) :
    (dot_S64x8192_S512x8192_S64x512_1_1_0_0_n_n.rhsIdx i q 0).val = (i 1).val := by
  unfold DotDims.rhsIdx
  rw [dif_neg (show ¬(0 : Fin S512x8192.rank) ∈ dot_S64x8192_S512x8192_S64x512_1_1_0_0_n_n.rhsBatch by decide),
    dif_pos (show (0 : Fin S512x8192.rank) ∈ dot_S64x8192_S512x8192_S64x512_1_1_0_0_n_n.rhsNonContracting by decide)]
  rfl
theorem rhs_col (i : S64x512.Idx) (q : dot_S64x8192_S512x8192_S64x512_1_1_0_0_n_n.contr.Idx) :
    (dot_S64x8192_S512x8192_S64x512_1_1_0_0_n_n.rhsIdx i q 1).val = (q ⟨0, by decide⟩).val :=
  dot_S64x8192_S512x8192_S64x512_1_1_0_0_n_n.rhsIdx_val_of_single rfl i q

theorem lhs_at (k : Fin 64) (d : Fin 512) (j : Fin 8192) :
    dot_S64x8192_S512x8192_S64x512_1_1_0_0_n_n.lhsIdx (ix2 k d)
      ((contrEquiv1 dot_S64x8192_S512x8192_S64x512_1_1_0_0_n_n 8192 rfl rfl).symm j) = ix2 k j := by
  have hj := contrEquiv1_symm_val dot_S64x8192_S512x8192_S64x512_1_1_0_0_n_n 8192 rfl rfl j
  refine funext fun a => Fin.ext ?_
  match a with
  | ⟨0, _⟩ => exact lhs_row _ _
  | ⟨1, _⟩ => exact (lhs_col _ _).trans hj

theorem rhs_at (k : Fin 64) (d : Fin 512) (j : Fin 8192) :
    dot_S64x8192_S512x8192_S64x512_1_1_0_0_n_n.rhsIdx (ix2 k d)
      ((contrEquiv1 dot_S64x8192_S512x8192_S64x512_1_1_0_0_n_n 8192 rfl rfl).symm j) = ix2 d j := by
  have hj := contrEquiv1_symm_val dot_S64x8192_S512x8192_S64x512_1_1_0_0_n_n 8192 rfl rfl j
  refine funext fun a => Fin.ext ?_
  match a with
  | ⟨0, _⟩ => exact rhs_row _ _
  | ⟨1, _⟩ => exact (rhs_col _ _).trans hj

/-- The table after a step: what it held plus the product sum of the two blocks' rows. -/
theorem table_step (v3 : Vec Ideal S64x8192 .f32) (v4 : Vec Ideal S512x8192 .f32) (v6 : Vec Ideal S64x512 .f32)
    (k : Fin 64) (d : Fin 512) :
    k0_pay3 (F := Ideal) v3 v4 v6 (ix2 k d) = v6 (ix2 k d) + ∑ j : Fin 8192, v3 (ix2 k j) * v4 (ix2 d j) := by
  unfold k0_pay3
  try dsimp only
  rw [shapeCast_self]
  refine congrArg (v6 (ix2 k d) + ·) ?_
  refine (Ideal.matmul_constant_zero_apply dot_S64x8192_S512x8192_S64x512_1_1_0_0_n_n none v3 v4 (ix2 k d)).trans ?_
  rw [← Equiv.sum_comp (contrEquiv1 dot_S64x8192_S512x8192_S64x512_1_1_0_0_n_n 8192 rfl rfl).symm]
  refine Finset.sum_congr rfl fun j _ => ?_
  rw [lhs_at, rhs_at]

/-- Row k of a [64, 8192] block with position j put back on the summed axis. -/
theorem lift_at (h : S64x8192.Reduces [1] S64) (k : Fin 64) (j : Fin 8192) : h.lift (ix1 k) j = ix2 k j :=
  funext fun a => Fin.ext (by match a with | ⟨0, _⟩ => rfl | ⟨1, _⟩ => rfl)

/-- The column after a step: what it held plus the sum of the block's row. -/
theorem column_step (v3 : Vec Ideal S64x8192 .f32) (v11 : Vec Ideal S64x1 .f32) (k : Fin 64) (u : Fin 1) :
    k0_pay4 (F := Ideal) v3 v11 (ix2 k u) = v11 (ix2 k u) + ∑ j : Fin 8192, v3 (ix2 k j) := by
  unfold k0_pay4
  try dsimp only
  rw [shapeCast_self]
  refine congrArg (v11 (ix2 k u) + ·) ?_
  refine (Cert.LibColumn.shapeCast_a_a1_apply _ shapeCasts_S64_S64x1 k u).trans ?_
  refine (Ideal.multiReduction_add_single v3 0x00000000#32 reduces_S64x8192_S64 (.inl rfl) rfl (ix1 k)).trans ?_
  exact Finset.sum_congr rfl fun j _ => congrArg v3 (lift_at reduces_S64x8192_S64 k j)

/-- The block written at the last step of a half: table entry minus the third operand's entry times the column entry. -/
theorem written (v21 v22 : Vec Ideal S64x512 .f32) (v23 : Vec Ideal S64x1 .f32) (u : Fin 1) (k : Fin 64) (d : Fin 512) :
    k0_pay5 (F := Ideal) v21 v22 v23 (ix3 u k d) = v21 (ix2 k d) - v22 (ix2 k d) * v23 (ix2 k (0 : Fin 1)) := by
  unfold k0_pay5
  try dsimp only
  refine (shapeCast_ab_1ab_apply _ shapeCasts_S64x512_S1x64x512 u k d).trans ?_
  refine congrArg (v21 (ix2 k d) - v22 (ix2 k d) * ·) ?_
  exact Cert.LibColumn.broadcastTo_a1_ab_apply v23 broadcasts_S64x1_S64x512 k d

end Cert.KernelIdeal.Payload

end
-- ==== Proof.Running.lean ====
/-
  The running table and column after every step, and the slab a half writes.

  With every input entry a real number, write a, x, c for the real readings of the [64, 131072], [512, 131072] and
  [64, 512] inputs.  After step n (half n / 8, position n % 8) the running table holds at (k, d) the product sum of row
  k of a with row d of x over the columns of that half met so far, 65536·(n / 8) … 65536·(n / 8) + 8192·(n % 8 + 1) - 1,
  and the running column holds at k the sum of row k of a over the same columns: by induction on the step, a first
  step starting from zero and every other step adding its block of 8192 columns to what the step before left.  At the
  last step of half p the slab written is, at (k, d), the half's product sum minus c (k, d) times the half's row sum.
-/
import proofs.«117677_j82549271429468_2_alg».proof.Proof.BlockSums
import proofs.«117677_j82549271429468_2_alg».proof.Proof.Blocks
import proofs.«117677_j82549271429468_2_alg».proof.Proof.Pieces
import proofs.«117677_j82549271429468_2_alg».proof.Proof.Payloads

noncomputable section

namespace Cert.KernelIdeal.Partial

open Cert.KernelIdeal Cert.KernelIdeal.Gen Idealize.ShloMosaic Idealize.ShloMosaic.TcCoe Idealize.SL.Sem
open Idealize.ShloMosaic.ValueIdx Cert.BlockSums

variable (m : (ℓ : Loc nD τ sig) → Buf (Elt Ideal) ℓ)

/-- The three inputs as the kernel finds them, as arrays of extended reals. -/
def xe (c : Dev nD) : S512x131072.Idx → EReal := V m c main_arg0
def ae (c : Dev nD) : S64x131072.Idx → EReal := V m c main_arg1
def ce (c : Dev nD) : S64x512.Idx → EReal := V m c main_arg2

/-- Their real readings. -/
def xr (c : Dev nD) : ℕ → ℕ → ℝ := re2 (xe m c)
def ar (c : Dev nD) : ℕ → ℕ → ℝ := re2 (ae m c)
def cr (c : Dev nD) : ℕ → ℕ → ℝ := re2 (ce m c)

/-- Every entry of the three inputs is a real number. -/
def AllReal (c : Dev nD) : Prop :=
  (∀ i, xe m c i ≠ ⊤ ∧ xe m c i ≠ ⊥) ∧ (∀ i, ae m c i ≠ ⊤ ∧ ae m c i ≠ ⊥) ∧ (∀ i, ce m c i ≠ ⊤ ∧ ce m c i ≠ ⊥)

/-- Column arithmetic of the steps: step n starts at column 8192·n, which is 65536·(n / 8) + 8192·(n % 8). -/
theorem col_first (n : ℕ) (h : n % 8 = 0) : n / 8 * 65536 = n * 8192 ∧ (n % 8 + 1) * 8192 = 8192 := by omega
theorem col_next (n : ℕ) (h : ¬n % 8 = 0) :
    (n - 1) / 8 * 65536 = n / 8 * 65536 ∧ ((n - 1) % 8 + 1) * 8192 = n % 8 * 8192
      ∧ (n % 8 + 1) * 8192 = n % 8 * 8192 + 8192 ∧ n * 8192 = n / 8 * 65536 + n % 8 * 8192 := by omega

variable {m}

/-- The blocks a step reads, as coerced reals. -/
theorem x_blk {c : Dev nD} (hf : AllReal m c) (t : Fin cfg0.N) (d : Fin 512) (j : Fin 8192) :
    (iblk m c 0 t : Vec Ideal S512x8192 .f32) (ix2 d j) = ((xr m c d.val (t.val * 8192 + j.val) : ℝ) : EReal) :=
  (Blocks.x_block m c t d j).trans (re2_coe (xe m c) hf.1 d ⟨t.val * 8192 + j.val, by have := Blocks.step_lt t; have := j.isLt; omega⟩)
theorem a_blk {c : Dev nD} (hf : AllReal m c) (t : Fin cfg0.N) (k : Fin 64) (j : Fin 8192) :
    (iblk m c 1 t : Vec Ideal S64x8192 .f32) (ix2 k j) = ((ar m c k.val (t.val * 8192 + j.val) : ℝ) : EReal) :=
  (Blocks.a_block m c t k j).trans (re2_coe (ae m c) hf.2.1 k ⟨t.val * 8192 + j.val, by have := Blocks.step_lt t; have := j.isLt; omega⟩)
theorem c_blk {c : Dev nD} (hf : AllReal m c) (t : Fin cfg0.N) (k : Fin 64) (d : Fin 512) :
    (iblk m c 2 t : Vec Ideal S64x512 .f32) (ix2 k d) = ((cr m c k.val d.val : ℝ) : EReal) :=
  (Blocks.c_block m c t k d).trans (re2_coe (ce m c) hf.2.2 k d)

/-- One table entry stepped: a real entry plus the block's product sum of real rows. -/
theorem table_entry (v3 : Vec Ideal S64x8192 .f32) (v4 : Vec Ideal S512x8192 .f32) (v6 : Vec Ideal S64x512 .f32)
    (a x : ℕ → ℕ → ℝ) (b : ℕ) (s : ℝ) (k : Fin 64) (d : Fin 512)
    (h3 : ∀ j : Fin 8192, v3 (ix2 k j) = ((a k.val (b + j.val) : ℝ) : EReal))
    (h4 : ∀ j : Fin 8192, v4 (ix2 d j) = ((x d.val (b + j.val) : ℝ) : EReal))
    (h6 : v6 (ix2 k d) = ((s : ℝ) : EReal)) :
    k0_pay3 (F := Ideal) v3 v4 v6 (ix2 k d) = ((s + dotSeg a x k.val d.val b 8192 : ℝ) : EReal) := by
  rw [Payload.table_step, h6, EReal.coe_add, ← sum_fin_mul]
  refine congrArg (_ + ·) (Finset.sum_congr rfl fun j _ => ?_)
  rw [h3, h4]

/-- One column entry stepped. -/
theorem column_entry (v3 : Vec Ideal S64x8192 .f32) (v11 : Vec Ideal S64x1 .f32)
    (a : ℕ → ℕ → ℝ) (b : ℕ) (s : ℝ) (k : Fin 64) (u : Fin 1)
    (h3 : ∀ j : Fin 8192, v3 (ix2 k j) = ((a k.val (b + j.val) : ℝ) : EReal))
    (h11 : v11 (ix2 k u) = ((s : ℝ) : EReal)) :
    k0_pay4 (F := Ideal) v3 v11 (ix2 k u) = ((s + rowSeg a k.val b 8192 : ℝ) : EReal) := by
  rw [Payload.column_step, h11, EReal.coe_add, ← sum_fin]
  refine congrArg (_ + ·) (Finset.sum_congr rfl fun j _ => ?_)
  rw [h3]

/-- What the running table `T` and column `C` hold after step `n`. -/
def Inv (c : Dev nD) (n : ℕ) (T : Vec Ideal S64x512 .f32) (C : Vec Ideal S64x1 .f32) : Prop :=
  (∀ (k : Fin 64) (d : Fin 512), T (ix2 k d) = ((dotSeg (ar m c) (xr m c) k.val d.val (n / 8 * 65536) ((n % 8 + 1) * 8192) : ℝ) : EReal))
  ∧ (∀ (k : Fin 64) (u : Fin 1), C (ix2 k u) = ((rowSeg (ar m c) k.val (n / 8 * 65536) ((n % 8 + 1) * 8192) : ℝ) : EReal))

/-- A first step of a half leaves the half's first block. -/
theorem inv_first {c : Dev nD} (hf : AllReal m c) (t : Fin cfg0.N) (h0 : t.val % 8 = 0) :
    Inv (m := m) c t.val (k0_pay3 (iblk m c 1 t) (iblk m c 0 t) (k0_pay1 (F := Ideal))) (k0_pay4 (iblk m c 1 t) (k0_pay2 (F := Ideal))) := by
  obtain ⟨e1, e2⟩ := col_first t.val h0
  constructor
  · intro k d
    rw [e1, e2]
    refine (table_entry (iblk m c 1 t) (iblk m c 0 t) (k0_pay1 (F := Ideal)) (ar m c) (xr m c) (t.val * 8192) 0 k d
      (fun j => a_blk hf t k j) (fun j => x_blk hf t d j) ((Payload.zero_table k d).trans EReal.coe_zero.symm)).trans ?_
    rw [zero_add]
  · intro k u
    rw [e1, e2]
    refine (column_entry (iblk m c 1 t) (k0_pay2 (F := Ideal)) (ar m c) (t.val * 8192) 0 k u
      (fun j => a_blk hf t k j) ((Payload.zero_column k u).trans EReal.coe_zero.symm)).trans ?_
    rw [zero_add]

/-- Every other step adds its block to what the step before left. -/
theorem inv_next {c : Dev nD} (hf : AllReal m c) (t : Fin cfg0.N) (h0 : ¬t.val % 8 = 0)
    (T : Vec Ideal S64x512 .f32) (C : Vec Ideal S64x1 .f32) (hprev : Inv (m := m) c (t.val - 1) T C) :
    Inv (m := m) c t.val (k0_pay3 (iblk m c 1 t) (iblk m c 0 t) T) (k0_pay4 (iblk m c 1 t) C) := by
  obtain ⟨e0, e1, e2, e3⟩ := col_next t.val h0
  constructor
  · intro k d
    rw [e2, dotSeg_add, ← e3]
    refine table_entry (iblk m c 1 t) (iblk m c 0 t) T (ar m c) (xr m c) (t.val * 8192) _ k d
      (fun j => a_blk hf t k j) (fun j => x_blk hf t d j) ?_
    rw [hprev.1 k d, e0, e1]
  · intro k u
    rw [e2, rowSeg_add, ← e3]
    refine column_entry (iblk m c 1 t) C (ar m c) (t.val * 8192) _ k u (fun j => a_blk hf t k j) ?_
    rw [hprev.2 k u, e0, e1]

set_option maxHeartbeats 1600000 in
/-- The three situations of a step, through what one run of the body leaves. -/
theorem first_of {c : Dev nD} (hf : AllReal m c) (t : Fin cfg0.N) (h0 : t.val % 8 = 0)
    (hc0 : cond0_0 (grid0.coords t)) (hc1 : ¬cond0_1 (grid0.coords t)) :
    Inv (m := m) c t.val
      (out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk m c 0 t) (iblk m c 1 t) (iblk m c 2 t),
        sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk m c 0 t) (iblk m c 1 t) (iblk m c 2 t),
        sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk m c 0 t) (iblk m c 1 t) (iblk m c 2 t)).2.1
      (out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk m c 0 t) (iblk m c 1 t) (iblk m c 2 t),
        sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk m c 0 t) (iblk m c 1 t) (iblk m c 2 t),
        sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk m c 0 t) (iblk m c 1 t) (iblk m c 2 t)).2.2 := by
  show Inv (m := m) c t.val (sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk m c 0 t) (iblk m c 1 t) (iblk m c 2 t)) (sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk m c 0 t) (iblk m c 1 t) (iblk m c 2 t))
  rw [Pieces.table_first c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk m c 0 t) (iblk m c 1 t) (iblk m c 2 t),
    Pieces.column_first c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk m c 0 t) (iblk m c 1 t) (iblk m c 2 t)]
  exact inv_first hf t h0

set_option maxHeartbeats 1600000 in
theorem middle_of {c : Dev nD} (hf : AllReal m c) (t : Fin cfg0.N) (h0 : ¬t.val % 8 = 0)
    (hc0 : ¬cond0_0 (grid0.coords t)) (hc1 : ¬cond0_1 (grid0.coords t))
    (T : Vec Ideal S64x512 .f32) (C : Vec Ideal S64x1 .f32) (hprev : Inv (m := m) c (t.val - 1) T C) :
    Inv (m := m) c t.val
      (out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk m c 0 t) (iblk m c 1 t) (iblk m c 2 t) T C,
        sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk m c 0 t) (iblk m c 1 t) (iblk m c 2 t) T C,
        sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk m c 0 t) (iblk m c 1 t) (iblk m c 2 t) T C).2.1
      (out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk m c 0 t) (iblk m c 1 t) (iblk m c 2 t) T C,
        sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk m c 0 t) (iblk m c 1 t) (iblk m c 2 t) T C,
        sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk m c 0 t) (iblk m c 1 t) (iblk m c 2 t) T C).2.2 := by
  show Inv (m := m) c t.val (sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk m c 0 t) (iblk m c 1 t) (iblk m c 2 t) T C) (sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk m c 0 t) (iblk m c 1 t) (iblk m c 2 t) T C)
  rw [Pieces.table_middle c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk m c 0 t) (iblk m c 1 t) (iblk m c 2 t) T C,
    Pieces.column_middle c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk m c 0 t) (iblk m c 1 t) (iblk m c 2 t) T C]
  exact inv_next hf t h0 T C hprev

set_option maxHeartbeats 1600000 in
theorem last_of {c : Dev nD} (hf : AllReal m c) (t : Fin cfg0.N) (h0 : ¬t.val % 8 = 0)
    (hc0 : ¬cond0_0 (grid0.coords t)) (hc1 : cond0_1 (grid0.coords t))
    (T : Vec Ideal S64x512 .f32) (C : Vec Ideal S64x1 .f32) (hprev : Inv (m := m) c (t.val - 1) T C) :
    Inv (m := m) c t.val
      (out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk m c 0 t) (iblk m c 1 t) (iblk m c 2 t) T C,
        sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk m c 0 t) (iblk m c 1 t) (iblk m c 2 t) T C,
        sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk m c 0 t) (iblk m c 1 t) (iblk m c 2 t) T C).2.1
      (out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk m c 0 t) (iblk m c 1 t) (iblk m c 2 t) T C,
        sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk m c 0 t) (iblk m c 1 t) (iblk m c 2 t) T C,
        sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk m c 0 t) (iblk m c 1 t) (iblk m c 2 t) T C).2.2 := by
  show Inv (m := m) c t.val (sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk m c 0 t) (iblk m c 1 t) (iblk m c 2 t) T C) (sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk m c 0 t) (iblk m c 1 t) (iblk m c 2 t) T C)
  rw [Pieces.table_last c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk m c 0 t) (iblk m c 1 t) (iblk m c 2 t) T C,
    Pieces.column_last c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk m c 0 t) (iblk m c 1 t) (iblk m c 2 t) T C]
  exact inv_next hf t h0 T C hprev

set_option maxHeartbeats 1600000 in
/-- THE RUNNING SUMS: after every step the carried table and column are the sums over the columns met so far. -/
theorem running {c : Dev nD} (hf : AllReal m c) : ∀ (n : ℕ) (h : n < cfg0.N),
    Inv (m := m) c n (outsAt0 m c n h).2.1 (outsAt0 m c n h).2.2 := by
  intro n
  induction n with
  | zero =>
    intro h
    have hA := outsAt0_A m c ⟨0, h⟩ rfl (by show ¬((0 : ℕ) % 8 = 7); decide)
    rw [show outsAt0 m c 0 h = outsAt0 m c (⟨0, h⟩ : Fin cfg0.N).val (⟨0, h⟩ : Fin cfg0.N).isLt from rfl, hA]
    exact first_of hf ⟨0, h⟩ rfl _ _
  | succ n ih =>
    intro h
    have hN : n + 1 < 16 := lt_of_lt_of_eq h (show cfg0.N = 16 from N_0)
    by_cases h0 : (n + 1) % 8 = 0
    · have h1 : ¬(n + 1) % 8 = 7 := by omega
      have hA := outsAt0_A m c ⟨n + 1, h⟩ h0 h1
      rw [show outsAt0 m c (n + 1) h = outsAt0 m c (⟨n + 1, h⟩ : Fin cfg0.N).val (⟨n + 1, h⟩ : Fin cfg0.N).isLt from rfl, hA]
      exact first_of hf ⟨n + 1, h⟩ h0 _ _
    · have hp := ih (Nat.lt_of_succ_lt h)
      by_cases h1 : (n + 1) % 8 = 7
      · have hC := outsAt0_C m c ⟨n + 1, h⟩ h0 h1
        rw [show outsAt0 m c (n + 1) h = outsAt0 m c (⟨n + 1, h⟩ : Fin cfg0.N).val (⟨n + 1, h⟩ : Fin cfg0.N).isLt from rfl, hC]
        exact last_of hf ⟨n + 1, h⟩ h0 _ _ _ _ hp
      · have hB := outsAt0_B m c ⟨n + 1, h⟩ h0 h1
        rw [show outsAt0 m c (n + 1) h = outsAt0 m c (⟨n + 1, h⟩ : Fin cfg0.N).val (⟨n + 1, h⟩ : Fin cfg0.N).isLt from rfl, hB]
        exact middle_of hf ⟨n + 1, h⟩ h0 _ _ _ _ hp

end Cert.KernelIdeal.Partial

end
-- ==== Proof.KernelValue.lean ====
/-
  The kernel's result.  Each half p writes, at its last step, the [1, 64, 512] slab whose entry (k, d) is the half's
  product sum minus c (k, d) times the half's row sum; the two slabs fill the [2, 64, 512] array, and the lines after
  the call add slab 0 and slab 1 entry by entry.
-/
import proofs.«117677_j82549271429468_2_alg».proof.Proof.Running
import Idealize.ShloMosaic.Lib.StableHlo.Run
import Idealize.ShloMosaic.Lib.ValueLayout

noncomputable section

namespace Cert.KernelIdeal.Partial

open Cert.KernelIdeal Cert.KernelIdeal.Gen Idealize.ShloMosaic Idealize.ShloMosaic.TcCoe Idealize.SL.Sem
open Idealize.ShloMosaic.ValueIdx Cert.BlockSums Idealize.ShloMosaic.StableHlo
open Idealize.ShloMosaic.Pipeline (Dat)

variable {m : (ℓ : Loc nD τ sig) → Buf (Elt Ideal) ℓ}

theorem last_col (n : ℕ) (h : n % 8 = 7) : ¬n % 8 = 0 ∧ (n % 8 + 1) * 8192 = 65536 := by omega

set_option maxHeartbeats 1600000 in
/-- What the last step of a half writes, entry by entry: the half's contribution. -/
theorem slab_entry {c : Dev nD} (hf : AllReal m c) (t : Fin cfg0.N) (h7 : t.val % 8 = 7) (u : Fin 1) (k : Fin 64) (d : Fin 512) :
    (outsAt0 m c t.val t.isLt).1 (ix3 u k d) = ((half (ar m c) (xr m c) (cr m c) (t.val / 8) k.val d.val : ℝ) : EReal) := by
  obtain ⟨h0, e⟩ := last_col t.val h7
  have hp := running hf (t.val - 1) (Nat.lt_of_le_of_lt (Nat.sub_le _ _) t.isLt)
  have hI := inv_next hf t h0 (outsAt0 m c (t.val - 1) (Nat.lt_of_le_of_lt (Nat.sub_le _ _) t.isLt)).2.1 (outsAt0 m c (t.val - 1) (Nat.lt_of_le_of_lt (Nat.sub_le _ _) t.isLt)).2.2 hp
  have hC := outsAt0_C m c t h0 h7
  refine (congrFun (congrArg Prod.fst hC) (ix3 u k d)).trans ?_
  refine (congrFun (Pieces.written_last c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h7) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2) (ix3 u k d)).trans ?_
  refine (Payload.written (k0_pay3 (iblk m c 1 t) (iblk m c 0 t) (outsAt0 m c (t.val - 1) (Nat.lt_of_le_of_lt (Nat.sub_le _ _) t.isLt)).2.1) (iblk m c 2 t) (k0_pay4 (iblk m c 1 t) (outsAt0 m c (t.val - 1) (Nat.lt_of_le_of_lt (Nat.sub_le _ _) t.isLt)).2.2) u k d).trans ?_
  rw [hI.1 k d, hI.2 k 0, c_blk hf t k d, ← EReal.coe_mul, ← EReal.coe_sub, e]
  rfl

/-- Where the slab of step t lies in the [2, 64, 512] array: half t / 8, rows and columns as they are. -/
theorem slab_at (t : Fin cfg0.N) (u : Fin 1) (k : Fin 64) (d : Fin 512) :
    ((((cfg0.win 3).blk t).view.emb (ix3 u k d)) 0).val = t.val / 8
      ∧ ((((cfg0.win 3).blk t).view.emb (ix3 u k d)) 1).val = k.val
      ∧ ((((cfg0.win 3).blk t).view.emb (ix3 u k d)) 2).val = d.val := by
  obtain ⟨e0, e1, e2⟩ := Blocks.out_block_index t
  have hu : u.val = 0 := by omega
  refine ⟨?_, ?_, ?_⟩
  · show win0_3.index t 0 * 1 + 1 * u.val = t.val / 8; rw [e0, hu, Nat.mul_one, Nat.mul_zero, Nat.add_zero]
  · show win0_3.index t 1 * 64 + 1 * k.val = k.val; rw [e1]; omega
  · show win0_3.index t 2 * 512 + 1 * d.val = d.val; rw [e2]; omega

variable (m)

/-- The [2, 64, 512] array after the call: slab p is half p's contribution. -/
def slabs (c : Dev nD) : Buf (Elt Ideal) ((c : Thread nD τ).loc main_v0) :=
  fun i => ((half (ar m c) (xr m c) (cr m c) (i 0).val (i 1).val (i 2).val : ℝ) : EReal)

variable {m}

/-- Every write-back writes its block of `slabs`. -/
theorem flushed_eq {c : Dev nD} (hf : AllReal m c) (t : Fin cfg0.N) (hfl : (cfg0.win 3).flush t = true) :
    (dats m 0 c).flushed 3 t = ((cfg0.win 3).blk t).view.read (Elt Ideal) (slabs m c) := by
  have h7 : t.val % 8 = 7 := (flush0_3 t).mp hfl
  show (cfg0.win 3).cut (grid0.coords t) ((dats m 0 c).after 3 t) = _
  rw [after0_3]
  funext y
  obtain ⟨u, k, d, rfl⟩ : ∃ (u : Fin 1) (k : Fin 64) (d : Fin 512), y = ix3 u k d := ⟨y 0, y 1, y 2, eq_ix3 y⟩
  show (outsAt0 m c t.val t.isLt).1 (ix3 u k d) = slabs m c (((cfg0.win 3).blk t).view.emb (ix3 u k d))
  obtain ⟨e0, e1, e2⟩ := slab_at t u k d
  rw [slab_entry hf t h7 u k d]
  unfold slabs
  rw [e0, e1, e2]

theorem step_of_half (p : ℕ) (hp : p < 2) : p * 8 + 7 < 16 ∧ (p * 8 + 7) % 8 = 7 ∧ (p * 8 + 7) / 8 = p := by omega

/-- The two slabs fill the array. -/
theorem covered (i : S2x64x512.Idx) : ∃ t : Fin cfg0.N, (cfg0.win 3).flush t = true ∧ i ∈ ((cfg0.win 3).blk t).view.set := by
  have hp : (i 0).val < 2 := (i 0).isLt
  have hk : (i 1).val < 64 := (i 1).isLt
  have hd : (i 2).val < 512 := (i 2).isLt
  obtain ⟨hlt, h7, hdiv⟩ := step_of_half (i 0).val hp
  let t : Fin cfg0.N := ⟨(i 0).val * 8 + 7, lt_of_lt_of_eq hlt (show cfg0.N = 16 from N_0).symm⟩
  obtain ⟨e0, e1, e2⟩ := Blocks.out_block_index t
  refine ⟨t, (flush0_3 t).mpr h7, ?_⟩
  show i ∈ ((View.whole main_v0).slice (win0_3.rect t)).set
  rw [View.set_slice_whole, Rect.mem_set_unit]
  intro a
  match a with
  | ⟨0, _⟩ =>
    show win0_3.index t 0 * 1 ≤ (i 0).val ∧ (i 0).val < win0_3.index t 0 * 1 + 1
    rw [e0]; show ((i 0).val * 8 + 7) / 8 * 1 ≤ (i 0).val ∧ (i 0).val < ((i 0).val * 8 + 7) / 8 * 1 + 1
    rw [hdiv]; omega
  | ⟨1, _⟩ => show win0_3.index t 1 * 64 ≤ (i 1).val ∧ (i 1).val < win0_3.index t 1 * 64 + 64; rw [e1]; omega
  | ⟨2, _⟩ => show win0_3.index t 2 * 512 ≤ (i 2).val ∧ (i 2).val < win0_3.index t 2 * 512 + 512; rw [e2]; omega

/-- So the array ends holding the two slabs. -/
theorem final_slabs {c : Dev nD} (hf : AllReal m c) : (dats m 0 c).arrAt 3 cfg0.N = slabs m c :=
  (dats m 0 c).arrAt_eq_of_cover 3 (slabs m c) (fun t h => flushed_eq hf t h) covered

/-- Slab p of a [2, 64, 512] array cut out and re-laid as [64, 512], read at (k, d). -/
theorem slab_read (W : S2x64x512.Idx → EReal) (off : Fin 3 → Nat) (p : Fin 2) (hoff : off = ![p.val, 0, 0])
    (hs : S2x64x512.Slices off S1x64x512) (hc : S1x64x512.ShapeCasts S64x512) (k : Fin 64) (d : Fin 512) :
    shapeCast S64x512 (extractStridedSlice S1x64x512 off W hs) hc (ix2 k d) = W (ix3 p k d) := by
  subst hoff
  refine (shapeCast_1ab_ab_apply _ hc k d).trans ?_
  refine extractStridedSlice_apply _ W hs _ (ix3 p k d) fun a => ?_
  match a with
  | ⟨0, _⟩ => show p.val = p.val + 0; omega
  | ⟨1, _⟩ => show k.val = 0 + k.val; omega
  | ⟨2, _⟩ => show d.val = 0 + d.val; omega

/-- THE KERNEL'S RESULT at entry (k, d): the two halves' contributions added, which is the whole. -/
theorem result_entry {c : Dev nD} (hf : AllReal m c) (k : Fin 64) (d : Fin 512) :
    Pipeline.afterTail₀ cfgs (dats m) 0 (V0 m) [hostOps1] c main_v5 (ix2 k d)
      = ((whole (ar m c) (xr m c) (cr m c) k.val d.val : ℝ) : EReal) := by
  have hW : Pipeline.withArrays (cfgs 0).spec c (V0 m c) (fun w => (dats m 0 c).arrAt w (cfgs 0).N) (Proc.tc.devRef main_v0)
      = slabs m c :=
    (Pipeline.withArrays_arr spec0 launch0.win.arr_inj c _ _ 3).trans (final_slabs hf)
  have hT : Pipeline.afterTail₀ cfgs (dats m) 0 (V0 m) [hostOps1] c main_v5
      = addf (F := Ideal) (s := S64x512) (φ := .f32)
          (shapeCast S64x512 (extractStridedSlice S1x64x512 ![0, 0, 0] (slabs m c) slices_S2x64x512_S1x64x512_0_0_0) shapeCasts_S1x64x512_S64x512)
          (shapeCast S64x512 (extractStridedSlice S1x64x512 ![1, 0, 0] (slabs m c) slices_S2x64x512_S1x64x512_1_0_0) shapeCasts_S1x64x512_S64x512) := by
    unfold Pipeline.afterTail₀
    show StableHlo.after hostOps1 _ (Proc.devRef .tc main_v5) = _
    after_results
    rw [hW]
    rfl
  rw [hT, addf_apply, slab_read (slabs m c) ![0, 0, 0] 0 rfl, slab_read (slabs m c) ![1, 0, 0] 1 rfl, ← half_add_half]
  show ((_ : ℝ) : EReal) + ((_ : ℝ) : EReal) = _
  rw [← EReal.coe_add]
  rfl

end Cert.KernelIdeal.Partial

end
-- ==== Proof.Reference.lean ====
/-
  The reference, entry by entry.  With every input entry a real number, entry (k, d) of the reference's result is the
  product sum of row k of the [64, 131072] input with row d of the [512, 131072] input over all 131072 columns, minus
  entry (k, d) of the [64, 512] input times the sum of row k of the [64, 131072] input: a coerced real.
-/
import proofs.«117677_j82549271429468_2_alg».proof.Proof.Gen.ReferenceIdeal.Read
import proofs.«117677_j82549271429468_2_alg».proof.Proof.BlockSums

noncomputable section

namespace Cert.ReferenceIdeal.RefValue

open Cert.ReferenceIdeal Cert.ReferenceIdeal.Gen Cert.ReferenceIdeal.Read Idealize.ShloMosaic Idealize.ShloMosaic.ValueIdx
open Cert.BlockSums

/-- The operand entries the reference's product and row sum read at result entry (k, d) and column n. -/
theorem lidx_eq (k : Fin 64) (d : Fin 512) (n : Fin 131072) : lidx_main_v0 (ix2 k d) n = ix2 k n :=
  funext fun a => Fin.ext (by match a with | ⟨0, _⟩ => rfl | ⟨1, _⟩ => rfl)
theorem ridx_eq (k : Fin 64) (d : Fin 512) (n : Fin 131072) : ridx_main_v0 (ix2 k d) n = ix2 d n :=
  funext fun a => Fin.ext (by match a with | ⟨0, _⟩ => rfl | ⟨1, _⟩ => rfl)
theorem row_idx_eq (k : Fin 64) (d : Fin 512) (n : Fin 131072) :
    idx_main_v1 (idx_main_v2 (idx_main_v3 (ix2 k d))) n = ix2 k n :=
  funext fun a => Fin.ext (by match a with | ⟨0, _⟩ => rfl | ⟨1, _⟩ => rfl)

variable (x0 : S512x131072.Idx → EReal) (x1 : S64x131072.Idx → EReal) (x2 : S64x512.Idx → EReal)

/-- The product over the whole long axis. -/
theorem product_entry (h0 : ∀ i, x0 i ≠ ⊤ ∧ x0 i ≠ ⊥) (h1 : ∀ i, x1 i ≠ ⊤ ∧ x1 i ≠ ⊥) (k : Fin 64) (d : Fin 512) :
    val_main_v0 (F := Ideal) x0 x1 (ix2 k d) = ((dotSeg (re2 x1) (re2 x0) k.val d.val 0 131072 : ℝ) : EReal) := by
  rw [val_main_v0_apply, ← sum_fin_mul]
  refine Finset.sum_congr rfl fun n _ => ?_
  rw [lidx_eq, ridx_eq, re2_coe x1 h1 k n, re2_coe x0 h0 d n, Nat.zero_add]

/-- The row sum over the whole long axis, spread over the row. -/
theorem row_entry (h1 : ∀ i, x1 i ≠ ⊤ ∧ x1 i ≠ ⊥) (k : Fin 64) (d : Fin 512) :
    val_main_v3 (F := Ideal) x1 (ix2 k d) = ((rowSeg (re2 x1) k.val 0 131072 : ℝ) : EReal) := by
  rw [val_main_v3_apply, val_main_v2_apply, val_main_v1_apply, val_main_cst_apply]
  show Ideal.ofBits .f32 0x00000000#32 + _ = _
  rw [Ideal.ofBits_zero_f32, zero_add, ← sum_fin]
  refine Finset.sum_congr rfl fun n _ => ?_
  rw [row_idx_eq, re2_coe x1 h1 k n, Nat.zero_add]

/-- THE REFERENCE at entry (k, d). -/
theorem result_entry (h0 : ∀ i, x0 i ≠ ⊤ ∧ x0 i ≠ ⊥) (h1 : ∀ i, x1 i ≠ ⊤ ∧ x1 i ≠ ⊥) (h2 : ∀ i, x2 i ≠ ⊤ ∧ x2 i ≠ ⊥)
    (k : Fin 64) (d : Fin 512) :
    val_main_v5 (F := Ideal) x0 x1 x2 (ix2 k d)
      = ((dotSeg (re2 x1) (re2 x0) k.val d.val 0 131072 - re2 x2 k.val d.val * rowSeg (re2 x1) k.val 0 131072 : ℝ) : EReal) := by
  rw [val_main_v5_apply, val_main_v4_apply, product_entry x0 x1 h0 h1, row_entry x1 h1, re2_coe x2 h2 k d]
  show ((_ : ℝ) : EReal) - ((_ : ℝ) : EReal) * ((_ : ℝ) : EReal) = _
  rw [← EReal.coe_mul, ← EReal.coe_sub]

end Cert.ReferenceIdeal.RefValue

end
-- ==== Proof.lean ====
/-
  The kernel computes, for k < 64 and d < 512,

      V[k, d] = Σ_n a[k, n] · (x[d, n] − c[k, d])      (n over 131072 columns)

  in the fused form  (Σ_n a[k, n] x[d, n]) − c[k, d] · Σ_n a[k, n],  and so does the reference.  The kernel takes the
  long axis in two halves of 65536 columns, each half in eight steps of 8192 columns: within a half it keeps a running
  [64, 512] table of product sums and a running [64, 1] column of row sums, at the half's last step it writes
  table − c · column into slab p of a [2, 64, 512] array, and after the call the two slabs are added.  The reference
  takes one product over all columns, one row sum, and subtracts.

  Over the extended reals the two agree where every input entry is finite, which the precondition says: then every sum
  above is a sum of real numbers, a sum over 131072 columns is the sum of its sixteen blocks in order, and
  (A₀ − c·s₀) + (A₁ − c·s₁) = (A₀ + A₁) − c·(s₀ + s₁) is distributivity of real multiplication — the one law that is
  false at the infinities.

  Modules: BlockSums (the real arithmetic), Finite (the precondition entry by entry), Payloads (what the body stores,
  entry by entry), Pieces (what one run of the body leaves), Blocks (which columns a step reads), Running (the running
  sums after every step, by induction on the step), KernelValue (the slabs and the final sum), Reference (the
  reference entry by entry).  The frames of the two kernels and the reference's run are the generated ones.
-/
import proofs.«117677_j82549271429468_2_alg».proof.Defs
import proofs.«117677_j82549271429468_2_alg».proof.Proof.Gen.Kernel
import proofs.«117677_j82549271429468_2_alg».proof.Proof.Gen.Kernel.Skeleton
import proofs.«117677_j82549271429468_2_alg».proof.Proof.Gen.Kernel.Launch
import proofs.«117677_j82549271429468_2_alg».proof.Proof.Gen.Kernel.Points
import proofs.«117677_j82549271429468_2_alg».proof.Proof.Gen.Kernel.Frame
import proofs.«117677_j82549271429468_2_alg».proof.Proof.Gen.KernelIdeal
import proofs.«117677_j82549271429468_2_alg».proof.Proof.Gen.KernelIdeal.Skeleton
import proofs.«117677_j82549271429468_2_alg».proof.Proof.Gen.KernelIdeal.Launch
import proofs.«117677_j82549271429468_2_alg».proof.Proof.Gen.KernelIdeal.Points
import proofs.«117677_j82549271429468_2_alg».proof.Proof.Gen.KernelIdeal.Frame
import proofs.«117677_j82549271429468_2_alg».proof.Proof.Gen.ReferenceIdeal
import proofs.«117677_j82549271429468_2_alg».proof.Proof.Gen.ReferenceIdeal.Run
import proofs.«117677_j82549271429468_2_alg».proof.Proof.Gen.ReferenceIdeal.Read
import proofs.«117677_j82549271429468_2_alg».proof.Proof.Gen.Pre_finite_inputs
import proofs.«117677_j82549271429468_2_alg».proof.Proof.Finite
import proofs.«117677_j82549271429468_2_alg».proof.Proof.KernelValue
import proofs.«117677_j82549271429468_2_alg».proof.Proof.Reference
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The result buffer is none of the call's arrays. -/
theorem result_mem : Cert.KernelIdeal.main_v5 ∈ Pipeline.restRefs Cert.KernelIdeal.sig (Cert.KernelIdeal.cfgs 0).spec :=
  Pipeline.mem_restRefs_of Cert.KernelIdeal.main_v5 (by decide) (by decide)

/-- Both programs end with the whole sum at every entry of the result. -/
theorem algebraic : Cert.algebraic_KernelIdeal_ReferenceIdeal := by
  intro m ρ m' ρ' hpre hagree
  have hf : ∀ c, Cert.KernelIdeal.Partial.AllReal m c := fun c => Cert.Finite.entries_real _ _ _ (hpre c)
  refine ⟨fun c => Pipeline.afterTail₀ Cert.KernelIdeal.cfgs (Cert.KernelIdeal.Gen.dats m) 0 (Cert.KernelIdeal.Gen.V0 m)
    [Cert.KernelIdeal.Gen.hostOps1] c Cert.KernelIdeal.main_v5, ?_, ?_⟩
  · exact (θ_run Cert.KernelIdeal.defs _ _).mono (fun _ h c => ⟨(h c).2 Cert.KernelIdeal.main_v5 result_mem,
      ((h c).1 0).trans (((Cert.KernelIdeal.Gen.dats m 0 c).arrAt_in 0 rfl _).trans
        ((Cert.KernelIdeal.Gen.A_eq m c 0).trans (Cert.KernelIdeal.Gen.V_main_arg0 m c))),
      ((h c).1 1).trans (((Cert.KernelIdeal.Gen.dats m 0 c).arrAt_in 1 rfl _).trans
        ((Cert.KernelIdeal.Gen.A_eq m c 1).trans (Cert.KernelIdeal.Gen.V_main_arg1 m c))),
      ((h c).1 2).trans (((Cert.KernelIdeal.Gen.dats m 0 c).arrAt_in 2 rfl _).trans
        ((Cert.KernelIdeal.Gen.A_eq m c 2).trans (Cert.KernelIdeal.Gen.V_main_arg2 m c)))⟩)
      (Cert.KernelIdeal.Gen.run_main m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2, Cert.ReferenceIdeal.Read.val_main_v5_eq]
    funext i
    obtain ⟨k, d, rfl⟩ : ∃ (k : Fin 64) (d : Fin 512), i = ix2 k d := ⟨i 0, i 1, eq_ix2 i⟩
    exact (Cert.ReferenceIdeal.RefValue.result_entry _ _ _ (hf c).1 (hf c).2.1 (hf c).2.2 k d).trans
      (Cert.KernelIdeal.Partial.result_entry (hf c) k d).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
